-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x128x32 : Shape := ⟨4, ![64, 128, 128, 32]⟩
abbrev S64x128x128 : Shape := ⟨3, ![64, 128, 128]⟩
abbrev S64x32 : Shape := ⟨2, ![64, 32]⟩
abbrev S1x32 : Shape := ⟨2, ![1, 32]⟩
abbrev S_ : Shape := ⟨0, ![]⟩

class Facts : Prop where
  bcast_S_S64x128x128x32 : S_.BroadcastsInDim S64x128x128x32 (![] : Fin 0 → Fin S64x128x128x32.rank)
  reducesTo_S64x128x128x32_S_d0_1_2_3 : S64x128x128x32.ReducesTo [0, 1, 2, 3] S_
  h_S_ : 0 < S_.numel
  bcast_S_S64x128x128 : S_.BroadcastsInDim S64x128x128 (![] : Fin 0 → Fin S64x128x128.rank)
  reducesTo_S64x128x128_S_d0_1_2 : S64x128x128.ReducesTo [0, 1, 2] S_
  bcast_S_S64x32 : S_.BroadcastsInDim S64x32 (![] : Fin 0 → Fin S64x32.rank)
  reducesTo_S64x32_S_d0_1 : S64x32.ReducesTo [0, 1] S_
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_arg4 : FVec F S1x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S1x32 .f32 := Host.absf main_arg4
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  main_v23

def fn {F : FTy → Type} [FloatOps F] (main_arg0 : FVec F S64x128x128x32 .f32) (main_arg1 : FVec F S64x128x128x32 .f32) (main_arg2 : FVec F S64x128x128 .f32) (main_arg3 : FVec F S64x32 .f32) (main_arg4 : FVec F S1x32 .f32) : IVec S_ 1 :=
  let main_v0 : FVec F S64x128x128x32 .f32 := Host.absf main_arg0
  let main_cst : FVec F S_ .f32 := constant S_ .f32 0x7F800000#32
  let main_v1 : FVec F S64x128x128x32 .f32 := broadcastInDim S64x128x128x32 ![] bcast_S_S64x128x128x32 main_cst
  let main_v2 : IVec S64x128x128x32 1 := cmpf .olt main_v0 main_v1
  let main_c : IVec S_ 1 := constantI S_ 1 1#1
  let main_v3 : IVec S_ 1 := (fun x v => Host.reduce IntOp.andi x v reducesTo_S64x128x128x32_S_d0_1_2_3 h_S_) main_v2 main_c
  let main_v4 : FVec F S64x128x128x32 .f32 := Host.absf main_arg1
  let main_cst_0 : FVec F S_ .f32 := constant S_ .f32 0x7F800000#32
  let main_v5 : FVec F S64x128x128x32 .f32 := broadcastInDim S64x128x128x32 ![] bcast_S_S64x128x128x32 main_cst_0
  let main_v6 : IVec S64x128x128x32 1 := cmpf .olt main_v4 main_v5
  let main_c_1 : IVec S_ 1 := constantI S_ 1 1#1
  let main_v7 : IVec S_ 1 := (fun x v => Host.reduce IntOp.andi x v reducesTo_S64x128x128x32_S_d0_1_2_3 h_S_) main_v6 main_c_1
  let main_v8 : IVec S_ 1 := andi main_v3 main_v7
  let main_v9 : FVec F S64x128x128 .f32 := Host.absf main_arg2
  let main_cst_2 : FVec F S_ .f32 := constant S_ .f32 0x7F800000#32
  let main_v10 : FVec F S64x128x128 .f32 := broadcastInDim S64x128x128 ![] bcast_S_S64x128x128 main_cst_2
  let main_v11 : IVec S64x128x128 1 := cmpf .olt main_v9 main_v10
  let main_c_3 : IVec S_ 1 := constantI S_ 1 1#1
  let main_v12 : IVec S_ 1 := (fun x v => Host.reduce IntOp.andi x v reducesTo_S64x128x128_S_d0_1_2 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S64x128x128x32 : Shape := ⟨4, ![64, 128, 128, 32]⟩
abbrev S64x128x128 : Shape := ⟨3, ![64, 128, 128]⟩
abbrev S64x32 : Shape := ⟨2, ![64, 32]⟩
abbrev S1x32 : Shape := ⟨2, ![1, 32]⟩
abbrev S32x32 : Shape := ⟨2, ![32, 32]⟩
abbrev S64x128x32 : Shape := ⟨3, ![64, 128, 32]⟩
abbrev S1x128x128x32 : Shape := ⟨4, ![1, 128, 128, 32]⟩
abbrev S1x128x128 : Shape := ⟨3, ![1, 128, 128]⟩
abbrev S1x128x32 : Shape := ⟨3, ![1, 128, 32]⟩
abbrev S16384x32 : Shape := ⟨2, ![16384, 32]⟩
abbrev S1x1x1x32 : Shape := ⟨4, ![1, 1, 1, 32]⟩
abbrev S1x128x128x1 : Shape := ⟨4, ![1, 128, 128, 1]⟩

abbrev nBuf : Space → Nat
  | .hbm => 8
  | .vmem => 11
  | .smem => 0
  | _ => 0

abbrev bufTy : (tb : Table) → Fin (tcTables nBuf tb) → BufTy
  | .hbm, ⟨0, _⟩ => ⟨S64x128x128x32, .f32⟩
  | .hbm, ⟨1, _⟩ => ⟨S64x128x128x32, .f32⟩
  | .hbm, ⟨2, _⟩ => ⟨S64x128x128, .f32⟩
  | .hbm, ⟨3, _⟩ => ⟨S64x32, .f32⟩
  | .hbm, ⟨4, _⟩ => ⟨S1x32, .f32⟩
  | .hbm, ⟨5, _⟩ => ⟨S32x32, .f32⟩
  | .hbm, ⟨6, _⟩ => ⟨S32x32, .f32⟩
  | .hbm, ⟨7, _⟩ => ⟨S64x128x32, .f32⟩
  | .local _ .vmem, ⟨0, _⟩ => ⟨S1x128x128x32, .f32⟩
  | .local _ .vmem, ⟨1, _⟩ => ⟨S1x128x128x32, .f32⟩
  | .local _ .vmem, ⟨2, _⟩ => ⟨S1x128x128x32, .f32⟩
  | .local _ .vmem, ⟨3, _⟩ => ⟨S1x128x128x32, .f32⟩
  | .local _ .vmem, ⟨4, _⟩ => ⟨S1x128x128, .f32⟩
  | .local _ .vmem, ⟨5, _⟩ => ⟨S1x128x128, .f32⟩
  | .local _ .vmem, ⟨6, _⟩ => ⟨S32x32, .f32⟩
  | .local _ .vmem, ⟨7, _⟩ => ⟨S32x32, .f32⟩
  | .local _ .vmem, ⟨8, _⟩ => ⟨S1x32, .f32⟩
  | .local _ .vmem, ⟨9, _⟩ => ⟨S1x128x32, .f32⟩
  | .local _ .vmem, ⟨10, _⟩ => ⟨S1x128x32, .f32⟩
  | _, _ => ⟨S64x128x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S64x32_S32x32_0_0 : S64x32.Slices ![0, 0] S32x32
  slices_S64x32_S32x32_32_0 : S64x32.Slices ![32, 0] S32x32
  inb_S1x128x128x32_S1x128x128x32_0_0_0_0 : ∀ a, (![0, 0, 0, 0] : Fin 4 → Nat) a + S1x128x128x32.size a ≤ S1x128x128x32.size a
  h_S1x128x128x32 : 0 < S1x128x128x32.numel
  bitsLt_bf16_f32 : FTy.bits .bf16 < FTy.bits .f32
  shapeCasts_S1x128x128x32_S16384x32 : S1x128x128x32.ShapeCasts S16384x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S16384x32_S1x128x128x32 : S16384x32.ShapeCasts S1x128x128x32
  inb_S1x32_S1x32_0_0 : ∀ a, (![0, 0] : Fin 2 → Nat) a + S1x32.size a ≤ S1x32.size a
  h_S1x32 : 0 < S1x32.numel
  shapeCasts_S1x32_S1x1x1x32 : S1x32.ShapeCasts S1x1x1x32
  broadcasts_S1x1x1x32_S1x128x128x32 : S1x1x1x32.Broadcasts S1x128x128x32
  inb_S1x128x128_S1x128x128_0_0_0 : ∀ a, (![0, 0, 0] : Fin 3 → Nat) a + S1x128x128.size a ≤ S1x128x128.size a
  h_S1x128x128 : 0 < S1x128x128.numel
  shapeCasts_S1x128x128_S1x128x128x1 : S1x128x128.ShapeCasts S1x128x128x1
  broadcasts_S1x128x128x1_S1x128x128x32 : S1x128x128x1.Broadcasts S1x128x128x32
  reduces_S1x128x128x32_S1x128x32 : S1x128x128x32.Reduces [2] S1x128x32
  inb_S1x128x32_S1x128x32_0_0_0 : ∀ a, (![0, 0, 0] : Fin 3 → Nat) a + S1x128x32.size a ≤ S1x128x32.size a
  h_S1x128x32 : 0 < S1x128x32.numel
  dot_S16384x32_S32x32_S16384x32_1_0_0_1_n_n_wf : DotDims.WF S16384x32 S32x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x32.size a ≤ S64x128x128x32.size a
  hwx0_0 : ∀ i : grid0.Coords, EltTy.bits .f32 = 32 ∨ (Rect.block (s := S64x128x128x32) S1x128x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128x32.size a ≤ S64x128x128x32.size a
  hwx0_1 : ∀ i : grid0.Coords, EltTy.bits .f32 = 32 ∨ (Rect.block (s := S64x128x128x32) S1x128x128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S64x128x128.size a
  hwx0_2 : ∀ i : grid0.Coords, EltTy.bits .f32 = 32 ∨ (Rect.block (s := S64x128x128) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x32.size a ≤ S64x128x32.size a
  hwx0_6 : ∀ i : grid0.Coords, EltTy.bits .f32 = 32 ∨ (Rect.block (s := S64x128x32) S1x128x32.size (cc0_transform_6 i) (hinb0_6 i)).WholeWords (EltTy.packing .f32)

variable [Facts₀]

def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

abbrev win0_0 : Pipeline.Window sig grid0 :=
  Pipeline.Window.ofSpec (Memref.whole main_arg0) S1x128x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x128x128x32 : Shape := ⟨4, ![64, 128, 128, 32]⟩
abbrev S64x128x128 : Shape := ⟨3, ![64, 128, 128]⟩
abbrev S64x32 : Shape := ⟨2, ![64, 32]⟩
abbrev S1x32 : Shape := ⟨2, ![1, 32]⟩
abbrev S64x128x128x64 : Shape := ⟨4, ![64, 128, 128, 64]⟩
abbrev S1x1x1x32 : Shape := ⟨4, ![1, 1, 1, 32]⟩
abbrev S64x128x128x1 : Shape := ⟨4, ![64, 128, 128, 1]⟩
abbrev S_ : Shape := ⟨0, ![]⟩
abbrev S64x128x32 : Shape := ⟨3, ![64, 128, 32]⟩

abbrev nBuf : Space → Nat
  | .hbm => 15
  | .vmem => 0
  | .smem => 0
  | _ => 0

abbrev bufTy : (tb : Table) → Fin (tcTables nBuf tb) → BufTy
  | .hbm, ⟨0, _⟩ => ⟨S64x128x128x32, .f32⟩
  | .hbm, ⟨1, _⟩ => ⟨S64x128x128x32, .f32⟩
  | .hbm, ⟨2, _⟩ => ⟨S64x128x128, .f32⟩
  | .hbm, ⟨3, _⟩ => ⟨S64x32, .f32⟩
  | .hbm, ⟨4, _⟩ => ⟨S1x32, .f32⟩
  | .hbm, ⟨5, _⟩ => ⟨S64x128x128x64, .f32⟩
  | .hbm, ⟨6, _⟩ => ⟨S64x128x128x32, .f32⟩
  | .hbm, ⟨7, _⟩ => ⟨S1x1x1x32, .f32⟩
  | .hbm, ⟨8, _⟩ => ⟨S64x128x128x32, .f32⟩
  | .hbm, ⟨9, _⟩ => ⟨S64x128x128x32, .f32⟩
  | .hbm, ⟨10, _⟩ => ⟨S64x128x128x1, .f32⟩
  | .hbm, ⟨11, _⟩ => ⟨S64x128x128x32, .f32⟩
  | .hbm, ⟨12, _⟩ => ⟨S64x128x128x32, .f32⟩
  | .hbm, ⟨13, _⟩ => ⟨S_, .f32⟩
  | .hbm, ⟨14, _⟩ => ⟨S64x128x32, .f32⟩
  | _, _ => ⟨S64x128x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  concatenates_S64x128x128x32_S64x128x128x32_S64x128x128x64_d3 : Shape.Concatenates [S64x128x128x32, S64x128x128x32] S64x128x128x64 3
  bcast_S1x32_S1x1x1x32_2_3 : S1x32.BroadcastsInDim S1x1x1x32 (![2, 3] : Fin 2 → Fin S1x1x1x32.rank)
  bcast_S1x1x1x32_S64x128x128x32_0_1_2_3 : S1x1x1x32.BroadcastsInDim S64x128x128x32 (![0, 1, 2, 3] : Fin 4 → Fin S64x128x128x32.rank)
  bcast_S64x128x128_S64x128x128x1_0_1_2 : S64x128x128.BroadcastsInDim S64x128x128x1 (![0, 1, 2] : Fin 3 → Fin S64x128x128x1.rank)
  bcast_S64x128x128x1_S64x128x128x32_0_1_2_3 : S64x128x128x1.BroadcastsInDim S64x128x128x32 (![0, 1, 2, 3] : Fin 4 → Fin S64x128x128x32.rank)
  reducesTo_S64x128x128x32_S64x128x32_d2 : S64x128x128x32.ReducesTo [2] S64x128x32
  h_S_ : 0 < S_.numel
  dot_S64x128x128x64_S64x32_S64x128x128x32_3_0_012_1_n_n_wf : DotDims.WF S64x128x128x64 S64x32 S64x128x128x32 [3] [0] [0, 1, 2] [1] [] []

variable [Facts₀]

def dot_S64x128x128x64_S64x32_S64x128x128x32_3_0_012_1_n_n : DotDims S64x128x128x64 S64x32 S64x128x128x32 where
  lhsContracting := [3]
  rhsContracting := [0]
  lhsNonContracting := [0, 1, 2]
  rhsNonContracting := [1]
  lhsBatch := []
  rhsBatch := []
  wf := dot_S64x128x128x64_S64x32_S64x128x128x32_3_0_012_1_n_n_wf

class Facts : Prop extends Facts₀ where

variable [Facts]
-- ==== Proof.Pooled.lean ====
/-
  Adjacency-masked sum pooling of a linear layer over pair features, on the extended reals.

  For pair features x₁, x₂ : [64,128,128,32], a neighbour mask adj : [64,128,128], weights w : [64,32] and a bias
  row : [1,32], entry (b, p, f) of the result is

      ∑ j < 128, ( (∑ k < 32, x₁(b,p,j,k) · w(k,f)  +  ∑ k < 32, x₂(b,p,j,k) · w(32+k,f))  +  bias(0,f) ) · adj(b,p,j):

  node p of graph b gathers, over its neighbours j, the linear image of the pair (p, j)'s 64 features — the first 32
  taken from x₁ and the last 32 from x₂ — shifted by the bias and weighted by the mask. Written with the contraction
  over the 64 features already cut at 32, this is the form in which a program that multiplies the two halves
  separately computes it; a program that joins x₁ and x₂ along the feature axis and contracts all 64 at once computes
  the same number, because a finite sum may be cut anywhere (`sum_halves`: no finiteness of the summands is asked,
  only that addition is commutative and associative, which it is on the extended reals).
-/
import Idealize.ShloMosaic.PureOps.Ideal.Laws
import Idealize.ShloMosaic.Lib.ValueIdx

noncomputable section

namespace Cert.Pooled

open Idealize.ShloMosaic Idealize.ShloMosaic.ValueIdx

/-- Feature k of the first half, as one of the 64 joined features. -/
def lo (k : Fin 32) : Fin 64 := ⟨k.val, by have := k.isLt; omega⟩

/-- Feature k of the second half, as one of the 64 joined features: 32 + k. -/
def hi (k : Fin 32) : Fin 64 := ⟨32 + k.val, by have := k.isLt; omega⟩

/-- A sum over the 64 joined features is the sum over the first 32 plus the sum over the last 32. -/
theorem sum_halves {M : Type*} [AddCommMonoid M] (u : Fin 64 → M) :
    ∑ k : Fin 64, u k = ∑ k : Fin 32, u (lo k) + ∑ k : Fin 32, u (hi k) :=
  Fin.sum_univ_add (fun i : Fin (32 + 32) => u i)

/-- Entry (b, p, f) of the pooled array. -/
def entry (x₁ x₂ : (⟨4, ![64, 128, 128, 32]⟩ : Shape).Idx → EReal) (adj : (⟨3, ![64, 128, 128]⟩ : Shape).Idx → EReal)
    (w : (⟨2, ![64, 32]⟩ : Shape).Idx → EReal) (bias : (⟨2, ![1, 32]⟩ : Shape).Idx → EReal)
    (b : Fin 64) (p : Fin 128) (f : Fin 32) : EReal :=
  ∑ j : Fin 128, ((∑ k : Fin 32, x₁ (ix4 b p j k) * w (ix2 (lo k) f) + ∑ k : Fin 32, x₂ (ix4 b p j k) * w (ix2 (hi k) f))
      + bias (ix2 (0 : Fin 1) f)) * adj (ix3 b p j)

/-- The pooled array [64,128,32] as one function of the five argument arrays. -/
def pooled (x₁ x₂ : (⟨4, ![64, 128, 128, 32]⟩ : Shape).Idx → EReal) (adj : (⟨3, ![64, 128, 128]⟩ : Shape).Idx → EReal)
    (w : (⟨2, ![64, 32]⟩ : Shape).Idx → EReal) (bias : (⟨2, ![1, 32]⟩ : Shape).Idx → EReal) :
    (⟨3, ![64, 128, 32]⟩ : Shape).Idx → EReal :=
  fun i => entry x₁ x₂ adj w bias (i 0) (i 1) (i 2)

/-- The pooled array read at an index written by its coordinates. -/
theorem pooled_apply (x₁ x₂ : (⟨4, ![64, 128, 128, 32]⟩ : Shape).Idx → EReal) (adj : (⟨3, ![64, 128, 128]⟩ : Shape).Idx → EReal)
    (w : (⟨2, ![64, 32]⟩ : Shape).Idx → EReal) (bias : (⟨2, ![1, 32]⟩ : Shape).Idx → EReal)
    (b : Fin 64) (p : Fin 128) (f : Fin 32) :
    pooled x₁ x₂ adj w bias (ix3 b p f) = entry x₁ x₂ adj w bias b p f := rfl

end Cert.Pooled

end
-- ==== Proof.BlockLayouts.lean ====
/-
  The re-layings of one batch's block, read at an index.

  One batch's pair features form a [1,128,128,32] block. To multiply by the weights the block is flattened to
  16384 rows of 32 features, row 128·p + j holding pair (p, j); the product is unflattened the same way. The bias
  row [1,32] is viewed [1,1,1,32] and spread over every pair; the mask [1,128,128] is viewed [1,128,128,1] and
  spread over the 32 output features. On the other side two [64,128,128,32] arrays are joined along the feature
  axis into [64,128,128,64]: feature k < 32 of the join is the first array's feature k, feature 32 + k the second's.
  Each statement says which entry of the operand an entry of the re-laid array is.
-/
import Idealize.ShloMosaic.Lib.Pipeline.Value
import Idealize.ShloMosaic.Lib.ValueIdx
import proofs.«158517_j9955734192544_2_alg».proof.Proof.Pooled

noncomputable section

namespace Cert.Pooled

open Idealize.ShloMosaic Idealize.ShloMosaic.ValueIdx

variable {α : Type}

/-- The flattened block's row that holds pair (p, j): 128·p + j. -/
def row (p j : Fin 128) : Fin 16384 := ⟨p.val * 128 + j.val, by have := p.isLt; have := j.isLt; omega⟩

/-- Flattening [1,128,128,32] to [16384,32]: row 128·p + j, column k reads the block at (0, p, j, k). -/
theorem flatten_apply (x : (⟨4, ![1, 128, 128, 32]⟩ : Shape).Idx → α)
    (h : (⟨4, ![1, 128, 128, 32]⟩ : Shape).ShapeCasts ⟨2, ![16384, 32]⟩) (p j : Fin 128) (k : Fin 32) :
    shapeCast ⟨2, ![16384, 32]⟩ x h (ix2 (row p j) k) = x (ix4 (0 : Fin 1) p j k) := by
  refine shapeCast_apply x h _ _ ?_
  rw [Shape.rowMajor_val_four, Shape.rowMajor_val_two]
  show (((0 : ℕ) * 128 + p.val) * 128 + j.val) * 32 + k.val = (p.val * 128 + j.val) * 32 + k.val
  omega

/-- Unflattening [16384,32] to [1,128,128,32]: entry (0, p, j, f) reads row 128·p + j, column f. -/
theorem unflatten_apply (y : (⟨2, ![16384, 32]⟩ : Shape).Idx → α)
    (h : (⟨2, ![16384, 32]⟩ : Shape).ShapeCasts ⟨4, ![1, 128, 128, 32]⟩) (p j : Fin 128) (f : Fin 32) :
    shapeCast ⟨4, ![1, 128, 128, 32]⟩ y h (ix4 (0 : Fin 1) p j f) = y (ix2 (row p j) f) := by
  refine shapeCast_apply y h _ _ ?_
  rw [Shape.rowMajor_val_four, Shape.rowMajor_val_two]
  show (p.val * 128 + j.val) * 32 + f.val = (((0 : ℕ) * 128 + p.val) * 128 + j.val) * 32 + f.val
  omega

/-- The bias row viewed [1,1,1,32] and spread over the block: entry (0, p, j, f) reads the row at (0, f). -/
theorem bias_apply (v : (⟨2, ![1, 32]⟩ : Shape).Idx → α)
    (h : (⟨2, ![1, 32]⟩ : Shape).ShapeCasts ⟨4, ![1, 1, 1, 32]⟩)
    (h' : (⟨4, ![1, 1, 1, 32]⟩ : Shape).Broadcasts ⟨4, ![1, 128, 128, 32]⟩) (p j : Fin 128) (f : Fin 32) :
    broadcastTo ⟨4, ![1, 128, 128, 32]⟩ (shapeCast ⟨4, ![1, 1, 1, 32]⟩ v h) h' (ix4 (0 : Fin 1) p j f)
      = v (ix2 (0 : Fin 1) f) := by
  refine (broadcastTo_apply _ h' _ (ix4 (0 : Fin 1) (0 : Fin 1) (0 : Fin 1) f) fun a => ?_).trans
    (shapeCast_apply v h _ _ ?_)
  · match a with
    | ⟨0, _⟩ => rfl
    | ⟨1, _⟩ => rfl
    | ⟨2, _⟩ => rfl
    | ⟨3, _⟩ => rfl
  · rw [Shape.rowMajor_val_four, Shape.rowMajor_val_two]
    show (0 : ℕ) * 32 + f.val = (((0 : ℕ) * 1 + 0) * 1 + 0) * 32 + f.val
    omega

/-- The mask viewed [1,128,128,1] and spread over the output features: entry (0, p, j, f) reads the mask at (0, p, j). -/
theorem mask_apply (v : (⟨3, ![1, 128, 128]⟩ : Shape).Idx → α)
    (h : (⟨3, ![1, 128, 128]⟩ : Shape).ShapeCasts ⟨4, ![1, 128, 128, 1]⟩)
    (h' : (⟨4, ![1, 128, 128, 1]⟩ : Shape).Broadcasts ⟨4, ![1, 128, 128, 32]⟩) (p j : Fin 128) (f : Fin 32) :
    broadcastTo ⟨4, ![1, 128, 128, 32]⟩ (shapeCast ⟨4, ![1, 128, 128, 1]⟩ v h) h' (ix4 (0 : Fin 1) p j f)
      = v (ix3 (0 : Fin 1) p j) := by
  refine (broadcastTo_apply _ h' _ (ix4 (0 : Fin 1) p j (0 : Fin 1)) fun a => ?_).trans
    (shapeCast_apply v h _ _ ?_)
  · match a with
    | ⟨0, _⟩ => rfl
    | ⟨1, _⟩ => rfl
    | ⟨2, _⟩ => rfl
    | ⟨3, _⟩ => rfl
  · rw [Shape.rowMajor_val_four, Shape.rowMajor_val_three]
    show ((0 : ℕ) * 128 + p.val) * 128 + j.val = (((0 : ℕ) * 128 + p.val) * 128 + j.val) * 1 + 0
    omega

/-- Two [64,128,128,32] arrays joined along the feature axis: joined feature k < 32 is the first array's feature k. -/
theorem join_lo (x₁ x₂ : (⟨4, ![64, 128, 128, 32]⟩ : Shape).Idx → α)
    (h : Shape.Concatenates [(⟨4, ![64, 128, 128, 32]⟩ : Shape), ⟨4, ![64, 128, 128, 32]⟩] ⟨4, ![64, 128, 128, 64]⟩ 3)
    (b : Fin 64) (p j : Fin 128) (k : Fin 32) :
    concatenate ⟨4, ![64, 128, 128, 64]⟩ 3 [⟨⟨4, ![64, 128, 128, 32]⟩, x₁⟩, ⟨⟨4, ![64, 128, 128, 32]⟩, x₂⟩] h (ix4 b p j (lo k))
      = x₁ (ix4 b p j k) :=
  concatenate_pair_apply_left 3 x₁ x₂ h _ rfl (ix4 b p j k) fun a => by
    match a with
    | ⟨0, _⟩ => rfl
    | ⟨1, _⟩ => rfl
    | ⟨2, _⟩ => rfl
    | ⟨3, _⟩ => rfl

/-- … and joined feature 32 + k is the second array's feature k. -/
theorem join_hi (x₁ x₂ : (⟨4, ![64, 128, 128, 32]⟩ : Shape).Idx → α)
    (h : Shape.Concatenates [(⟨4, ![64, 128, 128, 32]⟩ : Shape), ⟨4, ![64, 128, 128, 32]⟩] ⟨4, ![64, 128, 128, 64]⟩ 3)
    (b : Fin 64) (p j : Fin 128) (k : Fin 32) :
    concatenate ⟨4, ![64, 128, 128, 64]⟩ 3 [⟨⟨4, ![64, 128, 128, 32]⟩, x₁⟩, ⟨⟨4, ![64, 128, 128, 32]⟩, x₂⟩] h (ix4 b p j (hi k))
      = x₂ (ix4 b p j k) :=
  concatenate_pair_apply_right 3 x₁ x₂ h _ rfl rfl (ix4 b p j k)
    (fun a ha => by
      match a with
      | ⟨0, _⟩ => rfl
      | ⟨1, _⟩ => rfl
      | ⟨2, _⟩ => rfl
      | ⟨3, _⟩ => exact absurd rfl ha)
    (by show k.val + 32 = 32 + k.val; omega)

end Cert.Pooled

end
-- ==== Proof.ReferencePooled.lean ====
/-
  The reference computes the pooled array.

  The reference joins the two feature arrays along the feature axis, contracts all 64 joined features against the
  weights, adds the bias row to every pair, multiplies by the mask and sums over the neighbour axis from an initial
  zero. Read at entry (b, p, f): the contraction over the 64 joined features is cut at 32 (`Cert.Pooled.sum_halves`);
  in the first half the join is the first array and in the second half the second (`join_lo`, `join_hi`); the
  initial zero contributes nothing. What is left is `Cert.Pooled.entry`.
-/
import proofs.«158517_j9955734192544_2_alg».proof.Proof.Gen.ReferenceIdeal.Read
import proofs.«158517_j9955734192544_2_alg».proof.Proof.BlockLayouts

noncomputable section

namespace Cert.ReferenceIdeal.Pooling

open Cert.ReferenceIdeal Cert.ReferenceIdeal.Read Idealize.ShloMosaic Idealize.ShloMosaic.ValueIdx Cert.Pooled

variable (x0 x1 : (⟨S64x128x128x32, .f32⟩ : BufTy).Contents (Elt Ideal)) (x2 : (⟨S64x128x128, .f32⟩ : BufTy).Contents (Elt Ideal))
  (x3 : (⟨S64x32, .f32⟩ : BufTy).Contents (Elt Ideal)) (x4 : (⟨S1x32, .f32⟩ : BufTy).Contents (Elt Ideal))

/-- The linear layer at pair (p, j) of graph b, output feature f: the contraction over the 64 joined features, cut at 32
    into the first array's part and the second array's part. -/
theorem linear_apply (b : Fin 64) (p j : Fin 128) (f : Fin 32) :
    val_main_v1 (F := Ideal) x0 x1 x3 (ix4 b p j f)
      = ∑ k : Fin 32, x0 (ix4 b p j k) * x3 (ix2 (lo k) f) + ∑ k : Fin 32, x1 (ix4 b p j k) * x3 (ix2 (hi k) f) := by
  have el : ∀ k : Fin 64, lidx_main_v1 (ix4 b p j f) k = ix4 b p j k := fun k => funext fun a => by
    match a with
    | ⟨0, _⟩ => rfl
    | ⟨1, _⟩ => rfl
    | ⟨2, _⟩ => rfl
    | ⟨3, _⟩ => rfl
  have er : ∀ k : Fin 64, ridx_main_v1 (ix4 b p j f) k = ix2 k f := fun k => funext fun a => by
    match a with
    | ⟨0, _⟩ => rfl
    | ⟨1, _⟩ => rfl
  rw [val_main_v1_apply, sum_halves]
  refine congrArg₂ (· + ·) (Finset.sum_congr rfl fun k _ => ?_) (Finset.sum_congr rfl fun k _ => ?_)
  · rw [el, er]
    exact congrArg (· * x3 (ix2 (lo k) f)) (join_lo x0 x1 _ b p j k)
  · rw [el, er]
    exact congrArg (· * x3 (ix2 (hi k) f)) (join_hi x0 x1 _ b p j k)

/-- The masked, biased linear layer at pair (p, j) of graph b, output feature f. -/
theorem masked_apply (b : Fin 64) (p j : Fin 128) (f : Fin 32) :
    val_main_v7 (F := Ideal) x0 x1 x2 x3 x4 (ix4 b p j f)
      = ((∑ k : Fin 32, x0 (ix4 b p j k) * x3 (ix2 (lo k) f) + ∑ k : Fin 32, x1 (ix4 b p j k) * x3 (ix2 (hi k) f))
          + x4 (ix2 (0 : Fin 1) f)) * x2 (ix3 b p j) := by
  have e4 : idx_main_v2 (idx_main_v3 (ix4 b p j f)) = ix2 (0 : Fin 1) f := funext fun a => by
    match a with
    | ⟨0, _⟩ => rfl
    | ⟨1, _⟩ => rfl
  have e2 : idx_main_v5 (idx_main_v6 (ix4 b p j f)) = ix3 b p j := funext fun a => by
    match a with
    | ⟨0, _⟩ => rfl
    | ⟨1, _⟩ => rfl
    | ⟨2, _⟩ => rfl
  rw [val_main_v7_apply, val_main_v4_apply, linear_apply, val_main_v3_apply, val_main_v2_apply, val_main_v6_apply,
    val_main_v5_apply, e4, e2]
  rfl

/-- The reference's result is the pooled array of its five arguments. -/
theorem reference_pooled : val_main_v8 (F := Ideal) x0 x1 x2 x3 x4 = pooled x0 x1 x2 x3 x4 := by
  funext i
  obtain ⟨b, p, f, rfl⟩ : ∃ (b : Fin 64) (p : Fin 128) (f : Fin 32), i = ix3 b p f := ⟨i 0, i 1, i 2, eq_ix3 i⟩
  have e8 : ∀ j : Fin 128, idx_main_v8 (ix3 b p f) j = ix4 b p j f := fun j => funext fun a => by
    match a with
    | ⟨0, _⟩ => rfl
    | ⟨1, _⟩ => rfl
    | ⟨2, _⟩ => rfl
    | ⟨3, _⟩ => rfl
  have z : ∀ u, val_main_cst (F := Ideal) u = 0 := fun _ => Ideal.ofBits_zero_f32
  rw [val_main_v8_apply, pooled_apply, z, zero_add]
  unfold entry
  refine Finset.sum_congr rfl fun j _ => ?_
  rw [e8, masked_apply]

end Cert.ReferenceIdeal.Pooling

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibMidAxisSum.lean ====
/-
  A sum over the third axis of a rank-4 array, read at an index, over the extended reals.

  Reducing an [a,b,c,d] array by addition along its axis 2 leaves an [a,b,d] array whose entry (i, p, f) is the sum
  over j < c of the array at (i, p, j, f). At the ideal instance the reduction does not round and the order of a
  finite sum is immaterial, so the vector unit's multi-reduction from the neutral accumulator is exactly this sum.
  The statement is general in the four extents and in the float format.
-/
import Idealize.ShloMosaic.PureOps.Ideal.Laws
import Idealize.ShloMosaic.Lib.ValueIdx

noncomputable section

namespace Cert.MidAxisSum

open Idealize.ShloMosaic Idealize.ShloMosaic.ValueIdx

/-- A `multi_reduction <add>` along axis 2 of an [a,b,c,d] array, at entry (i, p, f) of the [a,b,d] result: the sum
    over j < c of the array at (i, p, j, f). -/
theorem multiReduction_add_apply {a b c d : ℕ} {φ : FTy} (src : FVec Ideal ⟨4, ![a, b, c, d]⟩ φ) (acc : BitVec φ.bits)
    (h : (⟨4, ![a, b, c, d]⟩ : Shape).Reduces [2] ⟨3, ![a, b, d]⟩) (hφ : FKind.Formats φ)
    (hacc : acc = FKind.add.neutral φ hφ) (i : Fin a) (p : Fin b) (f : Fin d) :
    multiReduction .add [2] ⟨3, ![a, b, d]⟩ src acc h hφ hacc (ix3 i p f) = ∑ j : Fin c, src (ix4 i p j f) := by
  refine (Ideal.multiReduction_add_single src acc h hφ hacc (ix3 i p f)).trans ?_
  refine Finset.sum_congr rfl fun j _ => congrArg src (funext fun e => Fin.ext ?_)
  match e with
  | ⟨0, _⟩ => rfl
  | ⟨1, _⟩ => rfl
  | ⟨2, _⟩ => rfl
  | ⟨3, _⟩ => rfl

end Cert.MidAxisSum

end
-- ==== Proof.BodyPooled.lean ====
/-
  What the kernel's body stores for one batch, entry by entry.

  At a grid point the body holds one batch's blocks: the two pair-feature blocks [1,128,128,32], the two 32×32
  halves of the weights, the bias row and the batch's mask [1,128,128]. It flattens each feature block to 16384 rows,
  multiplies each by its half of the weights into a zero accumulator, adds the two products, unflattens, adds the
  bias, multiplies by the mask and sums over the neighbour axis. The narrowing of the operands to bf16 is the identity
  on the extended reals. Read at entry (0, p, f) of the stored [1,128,32] block this is

      ∑ j < 128, ( (∑ k < 32, a(0,p,j,k) · u(k,f)  +  ∑ k < 32, c(0,p,j,k) · v(k,f))  +  bias(0,f) ) · mask(0,p,j).
-/
import proofs.«158517_j9955734192544_2_alg».proof.Proof.Gen.KernelIdeal.Skeleton
import proofs.«158517_j9955734192544_2_alg».proof.Proof.BlockLayouts
import proofs.«158517_j9955734192544_2_alg».proof.Proof.LibPlainDot
import proofs.«158517_j9955734192544_2_alg».proof.Proof.LibMidAxisSum

noncomputable section

namespace Cert.KernelIdeal.Pooling

open Cert.KernelIdeal Cert.KernelIdeal.Gen Idealize.ShloMosaic Idealize.ShloMosaic.ValueIdx Cert.Pooled

/-- One half's product at pair (p, j), output feature f: the flattened feature block's row 128·p + j against column f
    of that half's weights, the narrowing to bf16 and the weights' trivial re-shaping both the identity. -/
theorem half_apply (d : DotDims S16384x32 S32x32 S16384x32) (hd : d = DotDims.plain 16384 32 32)
    (x : FVec Ideal S1x128x128x32 .f32) (w : FVec Ideal S32x32 .f32) (hb : FTy.bits .bf16 < FTy.bits .f32)
    (hf : S1x128x128x32.ShapeCasts S16384x32) (hs : S32x32.ShapeCasts S32x32) (p j : Fin 128) (f : Fin 32) :
    matmul (F := Ideal) d none (shapeCast S16384x32 (truncf .bf16 x hb) hf) (truncf .bf16 (shapeCast S32x32 w hs) hb)
        (constant S16384x32 .f32 0x00000000#32) (ix2 (row p j) f)
      = ∑ k : Fin 32, x (ix4 (0 : Fin 1) p j k) * w (ix2 k f) := by
  refine (Cert.PlainDot.matmul_zero_apply d hd _ _ (row p j) f).trans ?_
  refine Finset.sum_congr rfl fun k _ => ?_
  rw [shapeCast_self]
  exact congrArg (· * w (ix2 k f)) (flatten_apply (truncf .bf16 x hb) hf p j k)

/-- The body's stored block at entry (0, p, f), from the six blocks it loads. -/
theorem body_apply (a c : FVec Ideal S1x128x128x32 .f32) (u v : FVec Ideal S32x32 .f32) (bias : FVec Ideal S1x32 .f32)
    (mask : FVec Ideal S1x128x128 .f32) (p : Fin 128) (f : Fin 32) :
    k0_pay1 (F := Ideal) a c u v bias mask (ix3 (0 : Fin 1) p f)
      = ∑ j : Fin 128, ((∑ k : Fin 32, a (ix4 (0 : Fin 1) p j k) * u (ix2 k f)
            + ∑ k : Fin 32, c (ix4 (0 : Fin 1) p j k) * v (ix2 k f)) + bias (ix2 (0 : Fin 1) f)) * mask (ix3 (0 : Fin 1) p j) := by
  unfold k0_pay1
  refine (Cert.MidAxisSum.multiReduction_add_apply _ _ _ _ _ (0 : Fin 1) p f).trans ?_
  refine Finset.sum_congr rfl fun j _ => ?_
  refine (mulf_apply _ _ _).trans (congrArg₂ (· * ·) ((addf_apply _ _ _).trans (congrArg₂ (· + ·) ?_ ?_)) ?_)
  · refine (unflatten_apply _ _ p j f).trans ((addf_apply _ _ _).trans (congrArg₂ (· + ·) ?_ ?_))
    · exact half_apply _ rfl a u _ _ _ p j f
    · exact half_apply _ rfl c v _ _ _ p j f
  · exact bias_apply bias _ _ p j f
  · exact mask_apply mask _ _ p j f

end Cert.KernelIdeal.Pooling

end
-- ==== Proof.ArrayPooled.lean ====
/-
  From one batch's block to the whole result array.

  The grid has one point per batch. At point t the pipeline hands the body batch t's two feature blocks and batch t's
  mask (block index t on the leading axis, 0 elsewhere), and the same three small arrays at every point: the first
  32 rows of the weights, the last 32 rows, and the bias row. The two halves of the weights are cut from the weight
  argument before the launch; the other arrays are the arguments themselves. So what the body stores at point t,
  entry (0, p, f), is the pooled array's entry (t, p, f) (`Cert.KernelIdeal.Pooling.body_apply` with each block read
  where it sits in its array); point t writes it back as block t of the result; the 64 blocks tile the result, block
  i₀ covering index (i₀, i₁, i₂); hence the result array ends holding the pooled array of the five arguments.
-/
import proofs.«158517_j9955734192544_2_alg».proof.Proof.Gen.KernelIdeal.Value
import proofs.«158517_j9955734192544_2_alg».proof.Proof.BodyPooled
import Idealize.ShloMosaic.Lib.Pipeline.Value
import Idealize.ShloMosaic.Lib.StableHlo.Run

noncomputable section

namespace Cert.KernelIdeal.Pooling

open Cert.KernelIdeal Cert.KernelIdeal.Gen Idealize.ShloMosaic Idealize.ShloMosaic.TcCoe Idealize.SL.Sem
open Idealize.ShloMosaic.ValueIdx Cert.Pooled
open Idealize.ShloMosaic.Pipeline (Dat)

variable (m : (ℓ : Loc nD τ sig) → Buf (Elt Ideal) ℓ) (ρ : Dev nD → PrngReg)

/-! ## Where each window's block sits -/

/-- The feature windows and the mask window move with the batch: block index t on the leading axis, 0 elsewhere. -/
theorem index_feat1 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem index_feat2 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)
theorem index_mask : ∀ t : Fin cfg0.N, win0_2.index t (0 : Fin 3) = t.val ∧ win0_2.index t (1 : Fin 3) = 0
    ∧ win0_2.index t (2 : Fin 3) = 0 :=
  (by decide +kernel : ∀ t : Fin grid0.N, _)
/-- The two halves of the weights and the bias row are the same block at every point. -/
theorem index_small : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)
/-- The result window moves with the batch too. -/
theorem index_out : ∀ t : Fin cfg0.N, win0_6.index t (0 : Fin 3) = t.val ∧ win0_6.index t (1 : Fin 3) = 0
    ∧ win0_6.index t (2 : Fin 3) = 0 :=
  (by decide +kernel : ∀ t : Fin grid0.N, _)

/-- The batch that grid point t works on. -/
def batch (t : Fin cfg0.N) : Fin 64 := ⟨t.val, by have := t.isLt; have h : cfg0.N = 64 := N_0; omega⟩

/-! ## Each block read where it sits in its argument -/

/-- The first feature block at point t is batch t of the first argument. -/
theorem feat1_block (c : Dev nD) (t : Fin cfg0.N) (p j : Fin 128) (k : Fin 32) :
    (iblk m c 0 t : FVec Ideal S1x128x128x32 .f32) (ix4 (0 : Fin 1) p j k)
      = (m ((c : Thread nD τ).loc main_arg0) : S64x128x128x32.Idx → EReal) (ix4 (batch t) p j k) := by
  obtain ⟨e0, e1, e2, e3⟩ := index_feat1 t
  unfold iblk
  rw [View.read_apply]
  refine (congrFun (V_main_arg0 m c) _).trans (congrArg (m ((c : Thread nD τ).loc main_arg0)) (funext fun a => Fin.ext ?_))
  match a with
  | ⟨0, _⟩ => show win0_0.index t (0 : Fin 4) * 1 + 1 * 0 = t.val; omega
  | ⟨1, _⟩ => show win0_0.index t (1 : Fin 4) * 128 + 1 * p.val = p.val; omega
  | ⟨2, _⟩ => show win0_0.index t (2 : Fin 4) * 128 + 1 * j.val = j.val; omega
  | ⟨3, _⟩ => show win0_0.index t (3 : Fin 4) * 32 + 1 * k.val = k.val; omega

/-- The second feature block at point t is batch t of the second argument. -/
theorem feat2_block (c : Dev nD) (t : Fin cfg0.N) (p j : Fin 128) (k : Fin 32) :
    (iblk m c 1 t : FVec Ideal S1x128x128x32 .f32) (ix4 (0 : Fin 1) p j k)
      = (m ((c : Thread nD τ).loc main_arg1) : S64x128x128x32.Idx → EReal) (ix4 (batch t) p j k) := by
  obtain ⟨e0, e1, e2, e3⟩ := index_feat2 t
  unfold iblk
  rw [View.read_apply]
  refine (congrFun (V_main_arg1 m c) _).trans (congrArg (m ((c : Thread nD τ).loc main_arg1)) (funext fun a => Fin.ext ?_))
  match a with
  | ⟨0, _⟩ => show win0_1.index t (0 : Fin 4) * 1 + 1 * 0 = t.val; omega
  | ⟨1, _⟩ => show win0_1.index t (1 : Fin 4) * 128 + 1 * p.val = p.val; omega
  | ⟨2, _⟩ => show win0_1.index t (2 : Fin 4) * 128 + 1 * j.val = j.val; omega
  | ⟨3, _⟩ => show win0_1.index t (3 : Fin 4) * 32 + 1 * k.val = k.val; omega

/-- The mask block at point t is batch t of the mask argument. -/
theorem mask_block (c : Dev nD) (t : Fin cfg0.N) (p j : Fin 128) :
    (iblk m c 2 t : FVec Ideal S1x128x128 .f32) (ix3 (0 : Fin 1) p j)
      = (m ((c : Thread nD τ).loc main_arg2) : S64x128x128.Idx → EReal) (ix3 (batch t) p j) := by
  obtain ⟨e0, e1, e2⟩ := index_mask t
  unfold iblk
  rw [View.read_apply]
  refine (congrFun (V_main_arg2 m c) _).trans (congrArg (m ((c : Thread nD τ).loc main_arg2)) (funext fun a => Fin.ext ?_))
  match a with
  | ⟨0, _⟩ => show win0_2.index t (0 : Fin 3) * 1 + 1 * 0 = t.val; omega
  | ⟨1, _⟩ => show win0_2.index t (1 : Fin 3) * 128 + 1 * p.val = p.val; omega
  | ⟨2, _⟩ => show win0_2.index t (2 : Fin 3) * 128 + 1 * j.val = j.val; omega

/-- The bias block at every point is the bias argument. -/
theorem bias_block (c : Dev nD) (t : Fin cfg0.N) (f : Fin 32) :
    (iblk m c 5 t : FVec Ideal S1x32 .f32) (ix2 (0 : Fin 1) f)
      = (m ((c : Thread nD τ).loc main_arg4) : S1x32.Idx → EReal) (ix2 (0 : Fin 1) f) := by
  obtain ⟨-, -, -, -, e0, e1⟩ := index_small t
  unfold iblk
  rw [View.read_apply]
  refine (congrFun (V_main_arg4 m c) _).trans (congrArg (m ((c : Thread nD τ).loc main_arg4)) (funext fun a => Fin.ext ?_))
  match a with
  | ⟨0, _⟩ => show win0_5.index t (0 : Fin 2) * 1 + 1 * 0 = 0; omega
  | ⟨1, _⟩ => show win0_5.index t (1 : Fin 2) * 32 + 1 * f.val = f.val; omega

/-- The array cut from the weights before the launch for the first product: rows 0 … 31 of the weight argument. -/
theorem weights_lo (c : Dev nD) (k f : Fin 32) :
    (V m c main_v0 : S32x32.Idx → EReal) (ix2 k f)
      = (m ((c : Thread nD τ).loc main_arg3) : S64x32.Idx → EReal) (ix2 (lo k) f) := by
  have e : (V m c main_v0 : S32x32.Idx → EReal)
      = extractStridedSlice S32x32 ![0, 0] (m ((c : Thread nD τ).loc main_arg3) : S64x32.Idx → EReal) slices_S64x32_S32x32_0_0 := by
    dsimp only [V, hostOps0]; after_results
  rw [e]
  refine extractStridedSlice_apply _ _ _ _ _ fun a => ?_
  match a with
  | ⟨0, _⟩ => show k.val = 0 + k.val; omega
  | ⟨1, _⟩ => show f.val = 0 + f.val; omega

/-- The array cut for the second product: rows 32 … 63 of the weight argument. -/
theorem weights_hi (c : Dev nD) (k f : Fin 32) :
    (V m c main_v1 : S32x32.Idx → EReal) (ix2 k f)
      = (m ((c : Thread nD τ).loc main_arg3) : S64x32.Idx → EReal) (ix2 (hi k) f) := by
  have e : (V m c main_v1 : S32x32.Idx → EReal)
      = extractStridedSlice S32x32 ![32, 0] (m ((c : Thread nD τ).loc main_arg3) : S64x32.Idx → EReal) slices_S64x32_S32x32_32_0 := by
    dsimp only [V, hostOps0]; after_results
  rw [e]
  refine extractStridedSlice_apply _ _ _ _ _ fun a => ?_
  match a with
  | ⟨0, _⟩ => show 32 + k.val = 32 + k.val; rfl
  | ⟨1, _⟩ => show f.val = 0 + f.val; omega

/-- The first weight block at every point is rows 0 … 31 of the weight argument. -/
theorem weights1_block (c : Dev nD) (t : Fin cfg0.N) (k f : Fin 32) :
    (iblk m c 3 t : FVec Ideal S32x32 .f32) (ix2 k f)
      = (m ((c : Thread nD τ).loc main_arg3) : S64x32.Idx → EReal) (ix2 (lo k) f) := by
  obtain ⟨e0, e1, -, -, -, -⟩ := index_small t
  unfold iblk
  rw [View.read_apply]
  refine Eq.trans (congrArg (V m c main_v0) (funext fun a => Fin.ext ?_)) (weights_lo m c k f)
  match a with
  | ⟨0, _⟩ => show win0_3.index t (0 : Fin 2) * 32 + 1 * k.val = k.val; omega
  | ⟨1, _⟩ => show win0_3.index t (1 : Fin 2) * 32 + 1 * f.val = f.val; omega

/-- The second weight block at every point is rows 32 … 63 of the weight argument. -/
theorem weights2_block (c : Dev nD) (t : Fin cfg0.N) (k f : Fin 32) :
    (iblk m c 4 t : FVec Ideal S32x32 .f32) (ix2 k f)
      = (m ((c : Thread nD τ).loc main_arg3) : S64x32.Idx → EReal) (ix2 (hi k) f) := by
  obtain ⟨-, -, e0, e1, -, -⟩ := index_small t
  unfold iblk
  rw [View.read_apply]
  refine Eq.trans (congrArg (V m c main_v1) (funext fun a => Fin.ext ?_)) (weights_hi m c k f)
  match a with
  | ⟨0, _⟩ => show win0_4.index t (0 : Fin 2) * 32 + 1 * k.val = k.val; omega
  | ⟨1, _⟩ => show win0_4.index t (1 : Fin 2) * 32 + 1 * f.val = f.val; omega

/-! ## What a point writes back, and the array after the run -/

/-- The pooled array of the five arguments as launched. -/
abbrev result (c : Dev nD) : S64x128x32.Idx → EReal :=
  pooled (m ((c : Thread nD τ).loc main_arg0)) (m ((c : Thread nD τ).loc main_arg1)) (m ((c : Thread nD τ).loc main_arg2))
    (m ((c : Thread nD τ).loc main_arg3)) (m ((c : Thread nD τ).loc main_arg4))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body stores at point t, entry y of its block, is the pooled array at the index of the result that entry y
    of block t is. -/
theorem stored_entry (c : Dev nD) (t : Fin cfg0.N) (y : S1x128x32.Idx) :
    k0_pay1 (F := Ideal) (iblk m c 0 t) (iblk m c 1 t) (iblk m c 3 t) (iblk m c 4 t) (iblk m c 5 t) (iblk m c 2 t) y
      = result m c (((cfg0.win 6).blk t).view.emb y) := by
  obtain ⟨u, p, f, rfl⟩ : ∃ (u : Fin 1) (p : Fin 128) (f : Fin 32), y = ix3 u p f := ⟨y 0, y 1, y 2, eq_ix3 y⟩
  obtain rfl : u = 0 := Subsingleton.elim u 0
  obtain ⟨e0, e1, e2⟩ := index_out t
  have he : ((cfg0.win 6).blk t).view.emb (ix3 (0 : Fin 1) p f) = ix3 (batch t) p f := funext fun a => Fin.ext (by
    match a with
    | ⟨0, _⟩ => show win0_6.index t (0 : Fin 3) * 1 + 1 * 0 = t.val; omega
    | ⟨1, _⟩ => show win0_6.index t (1 : Fin 3) * 128 + 1 * p.val = p.val; omega
    | ⟨2, _⟩ => show win0_6.index t (2 : Fin 3) * 32 + 1 * f.val = f.val; omega)
  rw [he]
  refine ((body_apply _ _ _ _ _ _ p f).trans ?_).trans (pooled_apply _ _ _ _ _ (batch t) p f).symm
  unfold entry
  refine Finset.sum_congr rfl fun j _ => ?_
  rw [mask_block, bias_block]
  refine congrArg₂ (· * ·) (congrArg₂ (· + ·) (congrArg₂ (· + ·) (Finset.sum_congr rfl fun k _ => ?_)
    (Finset.sum_congr rfl fun k _ => ?_)) rfl) rfl
  · rw [feat1_block, weights1_block]
  · rw [feat2_block, weights2_block]

/-- WHAT POINT t WRITES BACK is block t of the pooled array. -/
theorem flushed_pooled (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz3]
  simp only [View.ld_unit_zero (S := S1x128x128x32) hz4, View.ld_unit_zero (S := S32x32) hz2,
    View.ld_unit_zero (S := S1x32) hz2, View.ld_unit_zero (S := S1x128x128) hz3]
  funext y
  exact stored_entry m c t y

/-- An index of the result is in point t's block iff each coordinate is in the block's range on its axis. -/
theorem mem_block (t : Fin cfg0.N) (i : S64x128x32.Idx) :
    i ∈ ((cfg0.win 6).blk t).view.set ↔ ∀ a : Fin 3, win0_6.index t a * S1x128x32.size a ≤ (i a).val
      ∧ (i a).val < win0_6.index t a * S1x128x32.size a + S1x128x32.size a := by
  show i ∈ ((View.whole main_v2).slice (win0_6.rect t)).set ↔ _
  rw [View.set_slice_whole, Rect.mem_set_unit]
  exact Iff.rfl

/-- Every index of the result is in the block of the point that works on its batch. -/
theorem covered (i : S64x128x32.Idx) :
    ∃ t : Fin cfg0.N, (cfg0.win 6).flush t = true ∧ i ∈ ((cfg0.win 6).blk t).view.set := by
  have h0 : (i 0).val < 64 := (i 0).isLt
  have h1 : (i 1).val < 128 := (i 1).isLt
  have h2 : (i 2).val < 32 := (i 2).isLt
  have hN : cfg0.N = 64 := N_0
  obtain ⟨t, ht⟩ : ∃ t : Fin cfg0.N, t.val = (i 0).val := ⟨⟨(i 0).val, by omega⟩, rfl⟩
  obtain ⟨e0, e1, e2⟩ := index_out t
  refine ⟨t, flush0_6 t, ?_⟩
  rw [mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 32 ≤ (i 2).val ∧ (i 2).val < win0_6.index t (2 : Fin 3) * 32 + 32; omega

/-- THE RESULT ARRAY after the run is the pooled array of the arguments. -/
theorem final_pooled (c : Dev nD) : (dats m 0 c).arrAt 6 cfg0.N = result m c :=
  (dats m 0 c).arrAt_eq_of_cover 6 (result m c) (fun t _ => flushed_pooled m c t) covered

/-- The kernel's run, read: the result at the pooled array of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_pooled m c), (h c).2⟩)
    (Cert.KernelIdeal.Value.run_blocks m ρ)

end Cert.KernelIdeal.Pooling

end
-- ==== Proof.lean ====
/-
  A graph convolution with adjacency-masked sum pooling: the kernel against its reference, on the extended reals.

  For pair features x₁, x₂ : [64,128,128,32], a neighbour mask adj : [64,128,128], weights w : [64,32] and a bias
  row : [1,32], both programs compute, at entry (b, p, f) of a [64,128,32] result,

      ∑ j < 128, ( (∑ k < 32, x₁(b,p,j,k) · w(k,f)  +  ∑ k < 32, x₂(b,p,j,k) · w(32+k,f))  +  bias(0,f) ) · adj(b,p,j).

  The reference joins x₁ and x₂ along the feature axis and contracts all 64 features at once; the kernel, one batch
  per grid point, multiplies each half by its 32 rows of the weights and adds the two products. A finite sum may be cut
  anywhere, so the two contractions are one number — on the extended reals too, where addition is still commutative
  and associative; no distributivity or cancellation is used, and so no finiteness of the inputs. The kernel narrows
  its matrix operands to bf16, which on the extended reals is the identity, and it accumulates into zero, as the
  reference's sums start from zero.

  The three frames are the generated ones (the reference's is its generated run with the result dropped); nothing was
  rewritten in idealizing the kernel, so that claim is trivial; the value claim sets the kernel's run
  (`Cert.KernelIdeal.Pooling.run`: every result block is the pooled array's block, and the blocks tile the result)
  beside the reference's run read stage by stage (`Cert.ReferenceIdeal.Pooling.reference_pooled`).
-/
import proofs.«158517_j9955734192544_2_alg».proof.Defs
import proofs.«158517_j9955734192544_2_alg».proof.Proof.Gen.Kernel
import proofs.«158517_j9955734192544_2_alg».proof.Proof.Gen.Kernel.Skeleton
import proofs.«158517_j9955734192544_2_alg».proof.Proof.Gen.Kernel.Launch
import proofs.«158517_j9955734192544_2_alg».proof.Proof.Gen.Kernel.Points
import proofs.«158517_j9955734192544_2_alg».proof.Proof.Gen.Kernel.Frame
import proofs.«158517_j9955734192544_2_alg».proof.Proof.Gen.KernelIdeal
import proofs.«158517_j9955734192544_2_alg».proof.Proof.Gen.KernelIdeal.Skeleton
import proofs.«158517_j9955734192544_2_alg».proof.Proof.Gen.KernelIdeal.Launch
import proofs.«158517_j9955734192544_2_alg».proof.Proof.Gen.KernelIdeal.Points
import proofs.«158517_j9955734192544_2_alg».proof.Proof.Gen.KernelIdeal.Frame
import proofs.«158517_j9955734192544_2_alg».proof.Proof.Gen.ReferenceIdeal
import proofs.«158517_j9955734192544_2_alg».proof.Proof.Gen.Pre_finite_inputs
import proofs.«158517_j9955734192544_2_alg».proof.Proof.Gen.KernelIdeal.Value
import proofs.«158517_j9955734192544_2_alg».proof.Proof.Gen.ReferenceIdeal.Run
import proofs.«158517_j9955734192544_2_alg».proof.Proof.Gen.ReferenceIdeal.Read
import proofs.«158517_j9955734192544_2_alg».proof.Proof.ReferencePooled
import proofs.«158517_j9955734192544_2_alg».proof.Proof.ArrayPooled
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals: there is nothing to preserve. -/
theorem preserves : Cert.preserves_Kernel_KernelIdeal := trivial

/-- From memories that agree on the five arguments, the kernel's result array and the reference's both end at the
    pooled array of those arguments. -/
theorem algebraic : Cert.algebraic_KernelIdeal_ReferenceIdeal := by
  intro m ρ m' ρ' _ hagree
  refine ⟨fun c => Cert.KernelIdeal.Pooling.result m c, Cert.KernelIdeal.Pooling.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Pooling.reference_pooled,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
